-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S1x32, .f32⟩
  | .hbm, ⟨59, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x1, .f32⟩
  | .local _ .vmem, ⟨13, _⟩ => ⟨S10000x1, .f32⟩
  | .local _ .vmem, ⟨14, _⟩ => ⟨S64x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x1, .f32⟩
  | .local _ .vmem, ⟨20, _⟩ => ⟨S10000x1, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S100000x32, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x32, .f32⟩
  | .hbm, ⟨66, _⟩ => ⟨S_, .f32⟩
  | .hbm, ⟨67, _⟩ => ⟨S100000x32, .f32⟩
  | .hbm, ⟨68, _⟩ => ⟨S1600000x1, .i32⟩
  | .hbm, ⟨69, _⟩ => ⟨S100000x32, .f32⟩
  | .hbm, ⟨70, _⟩ => ⟨S100000x1, .f32⟩
  | .hbm, ⟨71, _⟩ => ⟨S100000x32, .f32⟩
  | .hbm, ⟨72, _⟩ => ⟨S100000x32, .f32⟩
  | .hbm, ⟨73, _⟩ => ⟨S1x32, .f32⟩
  | .hbm, ⟨74, _⟩ => ⟨S100000x32, .f32⟩
  | .hbm, ⟨75, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel program's run with its result array NAMED.

  The program is ten segments: five stretches of host operations that compute the two degree scales, the first
  pallas_call, a stretch that gathers its result along the edges and sums it per destination, the second pallas_call,
  the same stretch again, the third pallas_call.  The generated frame follows the buffers' contents through the
  segments as a fold `W0 … W10` and reads only the argument arrays off the last one.  Here the same run is stated
  once more with the result buffer read off the fold as well: every weakly fair execution terminates with the result
  array at `W10` of its buffer and the arguments as launched.
-/
import proofs.«104444_j77515569758941_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v37) = W10 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v37 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Layers

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.LibNormDense.lean ====
/-
  The dense stages of a graph convolution with symmetric degree normalisation, each as ONE whole-array function on the
  extended reals, with the two spellings that compute it: the kernel's arithmetic on a block of rows and the host's
  operations on whole arrays.

  With `s` and `t` columns `[n, 1]` (the source-side and the destination-side scale) and `r` a row `[1, k]` (a bias):
    * `scaledDot x s w (p, c)     = Σ j, (x (p, j) · s (p, 0)) · w (j, c)`
    * `hiddenDot g t r s w (p, c) = Σ j, (max (g (p, j) · t (p, 0) + r (0, j)) 0 · s (p, 0)) · w (j, c)`
    * `scaleShift g t r (p, c)    = g (p, c) · t (p, 0) + r (0, c)`
  No law of arithmetic joins the spellings: each is the same sum of the same products, so nothing here asks an entry
  to be finite.  A block of rows of any of the three is the same function of the row blocks of the arrays that carry
  the row axis (`*_rows`): entry `(p, c)` depends on row `p` only.
-/
import Idealize.ShloMosaic.Lib.ValueIdx
import Idealize.ShloMosaic.Lib.Pipeline.Value
import Idealize.ShloMosaic.PureOps.Ideal.Laws
import proofs.«104444_j77515569758941_1_alg».proof.Proof.LibPlainDot
import proofs.«104444_j77515569758941_1_alg».proof.Proof.LibKeepdims
import proofs.«104444_j77515569758941_1_alg».proof.Proof.LibRowBroadcast
import proofs.«104444_j77515569758941_1_alg».proof.Proof.LibHostKeepdims

noncomputable section

namespace Idealize.ShloMosaic.NormDense

open Idealize.ShloMosaic Idealize.ShloMosaic.ValueIdx

variable {m n k b : ℕ}

/-! ## The three functions -/

/-- Rows scaled by a column, then the matrix product. -/
def scaledDot (x : FVec Ideal ⟨2, ![n, k]⟩ .f32) (s : FVec Ideal ⟨2, ![n, 1]⟩ .f32) (w : FVec Ideal ⟨2, ![k, b]⟩ .f32) :
    FVec Ideal ⟨2, ![n, b]⟩ .f32 :=
  fun i => ∑ j : Fin k, (x (ix2 (i 0) j) * s (ix2 (i 0) (0 : Fin 1))) * w (ix2 j (i 1))

/-- Rows scaled by a column, shifted by a row, clamped below at zero, scaled by a second column, then the matrix
    product. -/
def hiddenDot (g : FVec Ideal ⟨2, ![n, k]⟩ .f32) (t : FVec Ideal ⟨2, ![n, 1]⟩ .f32) (r : FVec Ideal ⟨2, ![1, k]⟩ .f32)
    (s : FVec Ideal ⟨2, ![n, 1]⟩ .f32) (w : FVec Ideal ⟨2, ![k, b]⟩ .f32) : FVec Ideal ⟨2, ![n, b]⟩ .f32 :=
  fun i => ∑ j : Fin k,
    (max (g (ix2 (i 0) j) * t (ix2 (i 0) (0 : Fin 1)) + r (ix2 (0 : Fin 1) j)) 0 * s (ix2 (i 0) (0 : Fin 1))) * w (ix2 j (i 1))

/-- Rows scaled by a column and shifted by a row. -/
def scaleShift (g : FVec Ideal ⟨2, ![n, b]⟩ .f32) (t : FVec Ideal ⟨2, ![n, 1]⟩ .f32) (r : FVec Ideal ⟨2, ![1, b]⟩ .f32) :
    FVec Ideal ⟨2, ![n, b]⟩ .f32 :=
  fun i => g (ix2 (i 0) (i 1)) * t (ix2 (i 0) (0 : Fin 1)) + r (ix2 (0 : Fin 1) (i 1))

/-! ## A block of rows -/

/-- The rows `ρ p` of a scaled product are the scaled product of the rows `ρ p` of `x` and `s`. -/
theorem scaledDot_rows (ρ : Fin m → Fin n) (x : FVec Ideal ⟨2, ![n, k]⟩ .f32) (s : FVec Ideal ⟨2, ![n, 1]⟩ .f32)
    (w : FVec Ideal ⟨2, ![k, b]⟩ .f32) :
    scaledDot (fun y : (⟨2, ![m, k]⟩ : Shape).Idx => x (ix2 (ρ (y 0)) (y 1)))
        (fun y : (⟨2, ![m, 1]⟩ : Shape).Idx => s (ix2 (ρ (y 0)) (y 1))) w
      = fun y : (⟨2, ![m, b]⟩ : Shape).Idx => scaledDot x s w (ix2 (ρ (y 0)) (y 1)) := rfl

/-- The same for the hidden stage: the bias row and the weights carry no row axis. -/
theorem hiddenDot_rows (ρ : Fin m → Fin n) (g : FVec Ideal ⟨2, ![n, k]⟩ .f32) (t : FVec Ideal ⟨2, ![n, 1]⟩ .f32)
    (r : FVec Ideal ⟨2, ![1, k]⟩ .f32) (s : FVec Ideal ⟨2, ![n, 1]⟩ .f32) (w : FVec Ideal ⟨2, ![k, b]⟩ .f32) :
    hiddenDot (fun y : (⟨2, ![m, k]⟩ : Shape).Idx => g (ix2 (ρ (y 0)) (y 1)))
        (fun y : (⟨2, ![m, 1]⟩ : Shape).Idx => t (ix2 (ρ (y 0)) (y 1))) r
        (fun y : (⟨2, ![m, 1]⟩ : Shape).Idx => s (ix2 (ρ (y 0)) (y 1))) w
      = fun y : (⟨2, ![m, b]⟩ : Shape).Idx => hiddenDot g t r s w (ix2 (ρ (y 0)) (y 1)) := rfl

/-- The same for the last stage. -/
theorem scaleShift_rows (ρ : Fin m → Fin n) (g : FVec Ideal ⟨2, ![n, b]⟩ .f32) (t : FVec Ideal ⟨2, ![n, 1]⟩ .f32)
    (r : FVec Ideal ⟨2, ![1, b]⟩ .f32) :
    scaleShift (fun y : (⟨2, ![m, b]⟩ : Shape).Idx => g (ix2 (ρ (y 0)) (y 1)))
        (fun y : (⟨2, ![m, 1]⟩ : Shape).Idx => t (ix2 (ρ (y 0)) (y 1))) r
      = fun y : (⟨2, ![m, b]⟩ : Shape).Idx => scaleShift g t r (ix2 (ρ (y 0)) (y 1)) := rfl

/-! ## The kernel's spelling: casts that change nothing, a column broadcast over lanes, a row broadcast down rows, the
    matrix unit into the zero accumulator, operands narrowed on the way in (the identity on extended reals) -/

section Kernel

variable (D : DotDims ⟨2, ![n, k]⟩ ⟨2, ![k, b]⟩ ⟨2, ![n, b]⟩) (prec : Option ContractPrecision)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)

include hr hs hl0 hl1 hr0 hr1

theorem kernel_scaledDot (hc : (⟨2, ![n, 1]⟩ : Shape).ShapeCasts ⟨2, ![n, 1]⟩)
    (hb : (⟨2, ![n, 1]⟩ : Shape).Broadcasts ⟨2, ![n, k]⟩) (hlt : FTy.bf16.bits < FTy.f32.bits)
    (x : FVec Ideal ⟨2, ![n, k]⟩ .f32) (s : FVec Ideal ⟨2, ![n, 1]⟩ .f32) (w : FVec Ideal ⟨2, ![k, b]⟩ .f32) :
    matmul D prec (truncf .bf16 (mulf x (broadcastTo ⟨2, ![n, k]⟩ (shapeCast ⟨2, ![n, 1]⟩ s hc) hb)) hlt) (truncf .bf16 w hlt)
        (constant (F := Ideal) ⟨2, ![n, b]⟩ .f32 0x00000000#32)
      = scaledDot x s w := by
  funext i
  obtain ⟨p, c, rfl⟩ : ∃ (p : Fin n) (c : Fin b), i = ix2 p c := ⟨i 0, i 1, eq_ix2 i⟩
  rw [PlainDot.matmul_zero_apply D prec hr hs hl0 hl1 hr0 hr1]
  refine Finset.sum_congr rfl fun j _ => ?_
  rw [truncf_apply, truncf_apply, mulf_apply, Keepdims.broadcastTo_a1_ab_apply, shapeCast_self]
  rfl

theorem kernel_hiddenDot (hcg : (⟨2, ![n, k]⟩ : Shape).ShapeCasts ⟨2, ![n, k]⟩)
    (hc : (⟨2, ![n, 1]⟩ : Shape).ShapeCasts ⟨2, ![n, 1]⟩) (hb : (⟨2, ![n, 1]⟩ : Shape).Broadcasts ⟨2, ![n, k]⟩)
    (hcr : (⟨2, ![1, k]⟩ : Shape).ShapeCasts ⟨2, ![1, k]⟩) (hbr : (⟨2, ![1, k]⟩ : Shape).Broadcasts ⟨2, ![n, k]⟩)
    (hlt : FTy.bf16.bits < FTy.f32.bits)
    (g : FVec Ideal ⟨2, ![n, k]⟩ .f32) (t : FVec Ideal ⟨2, ![n, 1]⟩ .f32) (r : FVec Ideal ⟨2, ![1, k]⟩ .f32)
    (s : FVec Ideal ⟨2, ![n, 1]⟩ .f32) (w : FVec Ideal ⟨2, ![k, b]⟩ .f32) :
    matmul D prec
        (truncf .bf16
          (mulf
            (maximumf
              (addf (mulf (shapeCast ⟨2, ![n, k]⟩ g hcg) (broadcastTo ⟨2, ![n, k]⟩ (shapeCast ⟨2, ![n, 1]⟩ t hc) hb))
                (broadcastTo ⟨2, ![n, k]⟩ (shapeCast ⟨2, ![1, k]⟩ r hcr) hbr))
              (broadcast ⟨2, ![n, k]⟩ (Scalar.ofBits (F := Ideal) .f32 0x00000000#32)))
            (broadcastTo ⟨2, ![n, k]⟩ (shapeCast ⟨2, ![n, 1]⟩ s hc) hb)) hlt)
        (truncf .bf16 w hlt) (constant (F := Ideal) ⟨2, ![n, b]⟩ .f32 0x00000000#32)
      = hiddenDot g t r s w := by
  funext i
  obtain ⟨p, c, rfl⟩ : ∃ (p : Fin n) (c : Fin b), i = ix2 p c := ⟨i 0, i 1, eq_ix2 i⟩
  rw [PlainDot.matmul_zero_apply D prec hr hs hl0 hl1 hr0 hr1]
  refine Finset.sum_congr rfl fun j _ => ?_
  rw [truncf_apply, truncf_apply, mulf_apply, maximumf_apply, addf_apply, mulf_apply, broadcast_apply,
    Keepdims.broadcastTo_a1_ab_apply, Keepdims.broadcastTo_a1_ab_apply, RowBroadcast.broadcastTo_row_apply,
    shapeCast_self, shapeCast_self, shapeCast_self, shapeCast_self]
  show (max _ (Ideal.ofBits .f32 0x00000000#32) * _) * _ = _
  rw [Ideal.ofBits_zero_f32]
  rfl

omit hr hs hl0 hl1 hr0 hr1

end Kernel

theorem kernel_scaleShift (hcg : (⟨2, ![n, b]⟩ : Shape).ShapeCasts ⟨2, ![n, b]⟩)
    (hc : (⟨2, ![n, 1]⟩ : Shape).ShapeCasts ⟨2, ![n, 1]⟩) (hb : (⟨2, ![n, 1]⟩ : Shape).Broadcasts ⟨2, ![n, b]⟩)
    (hcr : (⟨2, ![1, b]⟩ : Shape).ShapeCasts ⟨2, ![1, b]⟩) (hbr : (⟨2, ![1, b]⟩ : Shape).Broadcasts ⟨2, ![n, b]⟩)
    (g : FVec Ideal ⟨2, ![n, b]⟩ .f32) (t : FVec Ideal ⟨2, ![n, 1]⟩ .f32) (r : FVec Ideal ⟨2, ![1, b]⟩ .f32) :
    addf (mulf (shapeCast ⟨2, ![n, b]⟩ g hcg) (broadcastTo ⟨2, ![n, b]⟩ (shapeCast ⟨2, ![n, 1]⟩ t hc) hb))
        (broadcastTo ⟨2, ![n, b]⟩ (shapeCast ⟨2, ![1, b]⟩ r hcr) hbr)
      = scaleShift g t r := by
  funext i
  obtain ⟨p, c, rfl⟩ : ∃ (p : Fin n) (c : Fin b), i = ix2 p c := ⟨i 0, i 1, eq_ix2 i⟩
  rw [addf_apply, mulf_apply, Keepdims.broadcastTo_a1_ab_apply, RowBroadcast.broadcastTo_row_apply,
    shapeCast_self, shapeCast_self, shapeCast_self]
  rfl

/-! ## The host's spelling: `broadcast_in_dim` of the column over lanes and of the row down rows, `dot_general` -/

section Host

variable (D : DotDims ⟨2, ![n, k]⟩ ⟨2, ![k, b]⟩ ⟨2, ![n, b]⟩) (prec : Option ContractPrecision)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)

include hr hs hl0 hl1 hr0 hr1

theorem host_scaledDot (hb : (⟨2, ![n, 1]⟩ : Shape).BroadcastsInDim ⟨2, ![n, k]⟩ (![0, 1] : Fin 2 → Fin 2))
    (x : FVec Ideal ⟨2, ![n, k]⟩ .f32) (s : FVec Ideal ⟨2, ![n, 1]⟩ .f32) (w : FVec Ideal ⟨2, ![k, b]⟩ .f32) :
    Host.dotGeneral D prec (mulf x (broadcastInDim ⟨2, ![n, k]⟩ (![0, 1] : Fin 2 → Fin 2) hb s)) w = scaledDot x s w := by
  funext i
  obtain ⟨p, c, rfl⟩ : ∃ (p : Fin n) (c : Fin b), i = ix2 p c := ⟨i 0, i 1, eq_ix2 i⟩
  rw [PlainDot.dotGeneral_apply D prec hr hs hl0 hl1 hr0 hr1]
  refine Finset.sum_congr rfl fun j _ => ?_
  rw [mulf_apply, HostKeepdims.bcast_a1_ab_apply]
  rfl

theorem host_hiddenDot (hb : (⟨2, ![n, 1]⟩ : Shape).BroadcastsInDim ⟨2, ![n, k]⟩ (![0, 1] : Fin 2 → Fin 2))
    (hbr : (⟨2, ![1, k]⟩ : Shape).BroadcastsInDim ⟨2, ![n, k]⟩ (![0, 1] : Fin 2 → Fin 2))
    (hz : (⟨0, ![]⟩ : Shape).BroadcastsInDim ⟨2, ![n, k]⟩ (![] : Fin 0 → Fin 2))
    (g : FVec Ideal ⟨2, ![n, k]⟩ .f32) (t : FVec Ideal ⟨2, ![n, 1]⟩ .f32) (r : FVec Ideal ⟨2, ![1, k]⟩ .f32)
    (s : FVec Ideal ⟨2, ![n, 1]⟩ .f32) (w : FVec Ideal ⟨2, ![k, b]⟩ .f32) :
    Host.dotGeneral D prec
        (mulf
          (maximumf
            (addf (mulf g (broadcastInDim ⟨2, ![n, k]⟩ (![0, 1] : Fin 2 → Fin 2) hb t))
              (broadcastInDim ⟨2, ![n, k]⟩ (![0, 1] : Fin 2 → Fin 2) hbr r))
            (broadcastInDim ⟨2, ![n, k]⟩ (![] : Fin 0 → Fin 2) hz (constant (F := Ideal) ⟨0, ![]⟩ .f32 0x00000000#32)))
          (broadcastInDim ⟨2, ![n, k]⟩ (![0, 1] : Fin 2 → Fin 2) hb s)) w
      = hiddenDot g t r s w := by
  funext i
  obtain ⟨p, c, rfl⟩ : ∃ (p : Fin n) (c : Fin b), i = ix2 p c := ⟨i 0, i 1, eq_ix2 i⟩
  rw [PlainDot.dotGeneral_apply D prec hr hs hl0 hl1 hr0 hr1]
  refine Finset.sum_congr rfl fun j _ => ?_
  rw [mulf_apply, maximumf_apply, addf_apply, mulf_apply, HostKeepdims.bcast_a1_ab_apply,
    HostKeepdims.bcast_a1_ab_apply, RowBroadcast.broadcastInDim_row_apply _ rfl rfl,
    HostKeepdims.bcast_scalar_apply, constant_apply, Ideal.ofBits_zero_f32]
  rfl

omit hr hs hl0 hl1 hr0 hr1

end Host

theorem host_scaleShift (hb : (⟨2, ![n, 1]⟩ : Shape).BroadcastsInDim ⟨2, ![n, b]⟩ (![0, 1] : Fin 2 → Fin 2))
    (hbr : (⟨2, ![1, b]⟩ : Shape).BroadcastsInDim ⟨2, ![n, b]⟩ (![0, 1] : Fin 2 → Fin 2))
    (g : FVec Ideal ⟨2, ![n, b]⟩ .f32) (t : FVec Ideal ⟨2, ![n, 1]⟩ .f32) (r : FVec Ideal ⟨2, ![1, b]⟩ .f32) :
    addf (mulf g (broadcastInDim ⟨2, ![n, b]⟩ (![0, 1] : Fin 2 → Fin 2) hb t))
        (broadcastInDim ⟨2, ![n, b]⟩ (![0, 1] : Fin 2 → Fin 2) hbr r)
      = scaleShift g t r := by
  funext i
  obtain ⟨p, c, rfl⟩ : ∃ (p : Fin n) (c : Fin b), i = ix2 p c := ⟨i 0, i 1, eq_ix2 i⟩
  rw [addf_apply, mulf_apply, HostKeepdims.bcast_a1_ab_apply, RowBroadcast.broadcastInDim_row_apply _ rfl rfl]
  rfl

/-- A flat `[k]` vector laid as a `[1, k]` row: by a reshape or by `broadcast_in_dim` along axis 1, the same row. -/
theorem row_reshape_eq_bcast (hc : (⟨1, ![k]⟩ : Shape).ShapeCasts ⟨2, ![1, k]⟩)
    (hb : (⟨1, ![k]⟩ : Shape).BroadcastsInDim ⟨2, ![1, k]⟩ (![1] : Fin 1 → Fin 2)) (v : FVec Ideal ⟨1, ![k]⟩ .f32) :
    shapeCast ⟨2, ![1, k]⟩ v hc = broadcastInDim ⟨2, ![1, k]⟩ (![1] : Fin 1 → Fin 2) hb v := by
  funext i
  obtain ⟨z, q, rfl⟩ : ∃ (z : Fin 1) (q : Fin k), i = ix2 z q := ⟨i 0, i 1, eq_ix2 i⟩
  rw [RowBroadcast.shapeCast_flat_apply, RowBroadcast.broadcastInDim_flat_apply _ rfl]

end Idealize.ShloMosaic.NormDense

end
-- ==== Proof.Region0.lean ====
/-
  The first pallas_call's result array as one function of the arrays it is entered with.

  The grid has ten points; point `t` stages rows `10000·t … 10000·t + 9999` of the node features and of the
  source-side scale column, the whole weight matrix, and writes back the same rows of the result.  On its block the
  body computes the scaled product (LibNormDense: `scaledDot`), and a block of rows of a scaled product is the
  scaled product of the row blocks; the ten row blocks cover the result array.
-/
import proofs.«104444_j77515569758941_1_alg».proof.Proof.Gen.KernelIdeal.Frame
import proofs.«104444_j77515569758941_1_alg».proof.Proof.LibNormDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.SL.Sem
open Idealize.ShloMosaic.ValueIdx Idealize.ShloMosaic.NormDense
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Row `p` of point `t`'s block is row `10000·t + p` of the array. -/
def row0 (t : Fin cfg0.N) (p : Fin 10000) : Fin 100000 :=
  ⟨t.val * 10000 + p.val, by have ht : t.val < 10 := lt_of_lt_of_eq t.isLt N_0; have := p.isLt; omega⟩

/-! ## The matrix unit's dimension record: operand indices of a plain `[10000, 128] × [128, 64]` product -/

theorem dot0_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem dot0_l1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dot0_r0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dot0_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- On a block the body computes the scaled product of what it loaded. -/
theorem pay0 (x0 : Vec Ideal S10000x128 .f32) (x1 : Vec Ideal S10000x1 .f32) (x2 : Vec Ideal S128x64 .f32) :
    k0_pay1 x0 x1 x2 = scaledDot x0 x1 x2 :=
  kernel_scaledDot dot_S10000x128_S128x64_S10000x64_1_0_0_1_n_n none rfl rfl dot0_l0 dot0_l1 dot0_r0 dot0_r1
    shapeCasts_S10000x1_S10000x1 broadcasts_S10000x1_S10000x128 bitsLt_bf16_f32 x0 x1 x2

/-! ## The blocks -/

/-- The index maps over the grid: the row-blocked windows sit at block row `t`, the weights at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem read0_0 (c : Dev nD) (t : Fin cfg0.N) :
    iblk0 V c 0 t = fun y : S10000x128.Idx => V c main_arg0 (ix2 (row0 t (y 0)) (y 1)) := by
  funext y
  show V c main_arg0 (((cfg0.win 0).blk t).view.emb y) = _
  refine congrArg (V c main_arg0) (funext fun a => Fin.ext ?_)
  obtain ⟨e0, e1, -⟩ := idx0 t
  match a with
  | ⟨0, _⟩ => show win0_0.index t (0 : Fin 2) * 10000 + 1 * (y 0).val = t.val * 10000 + (y 0).val; rw [e0]; omega
  | ⟨1, _⟩ => show win0_0.index t (1 : Fin 2) * 128 + 1 * (y 1).val = (y 1).val; rw [e1]; omega

theorem read0_1 (c : Dev nD) (t : Fin cfg0.N) :
    iblk0 V c 1 t = fun y : S10000x1.Idx => V c main_v11 (ix2 (row0 t (y 0)) (y 1)) := by
  funext y
  show V c main_v11 (((cfg0.win 1).blk t).view.emb y) = _
  refine congrArg (V c main_v11) (funext fun a => Fin.ext ?_)
  obtain ⟨-, -, e0, e1, -⟩ := idx0 t
  match a with
  | ⟨0, _⟩ => show win0_1.index t (0 : Fin 2) * 10000 + 1 * (y 0).val = t.val * 10000 + (y 0).val; rw [e0]; omega
  | ⟨1, _⟩ => show win0_1.index t (1 : Fin 2) * 1 + 1 * (y 1).val = (y 1).val; rw [e1]; omega

theorem read0_2 (c : Dev nD) (t : Fin cfg0.N) : iblk0 V c 2 t = V c main_arg1 := by
  funext y
  show V c main_arg1 (((cfg0.win 2).blk t).view.emb y) = _
  refine congrArg (V c main_arg1) (funext fun a => Fin.ext ?_)
  obtain ⟨-, -, -, -, e0, e1, -⟩ := idx0 t
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- Any array read through the output window's block at `t` is its rows `row0 t`. -/
theorem read0_3 (t : Fin cfg0.N) (A : S100000x64.Idx → Elt Ideal .f32) :
    ((cfg0.win 3).blk t).view.read (Elt Ideal) A = fun y : S10000x64.Idx => A (ix2 (row0 t (y 0)) (y 1)) := by
  funext y
  show A (((cfg0.win 3).blk t).view.emb y) = _
  refine congrArg A (funext fun a => Fin.ext ?_)
  obtain ⟨-, -, -, -, -, -, e0, e1⟩ := idx0 t
  match a with
  | ⟨0, _⟩ => show win0_3.index t (0 : Fin 2) * 10000 + 1 * (y 0).val = t.val * 10000 + (y 0).val; rw [e0]; omega
  | ⟨1, _⟩ => show win0_3.index t (1 : Fin 2) * 64 + 1 * (y 1).val = (y 1).val; rw [e1]; omega

/-- What point `t` writes back is block `t` of the scaled product of the arrays as the region finds them. -/
theorem flushed0 (c : Dev nD) (t : Fin cfg0.N) :
    (dat0 V c).flushed 3 t
      = ((cfg0.win 3).blk t).view.read (Elt Ideal) (scaledDot (V c main_arg0) (V c main_v11) (V c main_arg1)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S10000x1) origin2,
    View.ld_unit_zero (S := S128x64) origin2]
  rw [pay0, read0_0, read0_1, read0_2, read0_3]
  exact scaledDot_rows (row0 t) (V c main_arg0) (V c main_v11) (V c main_arg1)

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

/-- Row `r` of the result lies in the block of point `r / 10000`: the ten blocks cover the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := by rw [show cfg0.N = 10 from N_0]; omega
  obtain ⟨-, -, -, -, -, -, e0, e1⟩ := idx0 ⟨(i 0).val / 10000, hN⟩
  refine ⟨⟨(i 0).val / 10000, hN⟩, flush0_3 _, ?_⟩
  rw [mem_blk0]
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, hN⟩ (1 : Fin 2) * 64 ≤ (i 1).val
      ∧ (i 1).val < win0_3.index ⟨(i 0).val / 10000, hN⟩ (1 : Fin 2) * 64 + 64
    rw [e1]; omega

/-- After the first pallas_call its result array is the scaled product of the arrays it was entered with. -/
theorem region0_value (c : Dev nD) :
    (dat0 V c).arrAt 3 cfg0.N = scaledDot (V c main_arg0) (V c main_v11) (V c main_arg1) :=
  (dat0 V c).arrAt_eq_of_cover 3 (scaledDot (V c main_arg0) (V c main_v11) (V c main_arg1))
    (fun t _ => flushed0 V c t) cover0

end Cert.KernelIdeal.Layers

end
-- ==== Proof.Region1.lean ====
/-
  The second pallas_call's result array as one function of the arrays it is entered with.

  Point `t` of its ten stages rows `10000·t … 10000·t + 9999` of the per-destination sums and of both scale columns,
  the whole bias row and weight matrix, and writes back the same rows of the result.  On its block the body computes
  the hidden stage (LibNormDense: `hiddenDot`: scale, add the bias, clamp at zero, scale, multiply by the weights),
  which depends on its row only; the ten row blocks cover the result array.
-/
import proofs.«104444_j77515569758941_1_alg».proof.Proof.Gen.KernelIdeal.Frame
import proofs.«104444_j77515569758941_1_alg».proof.Proof.LibNormDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.SL.Sem
open Idealize.ShloMosaic.ValueIdx Idealize.ShloMosaic.NormDense
open Idealize.ShloMosaic.Pipeline (Dat)

variable (V : (c : Dev nD) → (b : Ref sig .tc) → Buf (Elt Ideal) ((c : Thread nD τ).loc b))

/-- Row `p` of point `t`'s block is row `10000·t + p` of the array. -/
def row1 (t : Fin cfg1.N) (p : Fin 10000) : Fin 100000 :=
  ⟨t.val * 10000 + p.val, by have ht : t.val < 10 := lt_of_lt_of_eq t.isLt N_1; have := p.isLt; omega⟩

theorem origin2' : (![0, 0] : Fin 2 → Nat) = fun _ => 0 := funext fun a => by fin_cases a <;> rfl

/-! ## The matrix unit's dimension record: operand indices of a plain `[10000, 64] × [64, 32]` product -/

theorem dot1_l0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl
theorem dot1_l1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem dot1_r0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem dot1_r1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

/-- On a block the body computes the hidden stage of what it loaded. -/
theorem pay1 (x0 : Vec Ideal S10000x64 .f32) (x1 : Vec Ideal S10000x1 .f32) (x2 : Vec Ideal S1x64 .f32)
    (x3 : Vec Ideal S10000x1 .f32) (x4 : Vec Ideal S64x32 .f32) :
    k1_pay1 x0 x1 x2 x3 x4 = hiddenDot x0 x1 x2 x3 x4 :=
  kernel_hiddenDot dot_S10000x64_S64x32_S10000x32_1_0_0_1_n_n none rfl rfl dot1_l0 dot1_l1 dot1_r0 dot1_r1
    shapeCasts_S10000x64_S10000x64 shapeCasts_S10000x1_S10000x1 broadcasts_S10000x1_S10000x64
    shapeCasts_S1x64_S1x64 broadcasts_S1x64_S10000x64 bitsLt_bf16_f32 x0 x1 x2 x3 x4

/-! ## The blocks -/

/-- The index maps over the grid: the row-blocked windows sit at block row `t`, the bias and the weights at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem read1_0 (c : Dev nD) (t : Fin cfg1.N) :
    iblk1 V c 0 t = fun y : S10000x64.Idx => V c main_v23 (ix2 (row1 t (y 0)) (y 1)) := by
  funext y
  show V c main_v23 (((cfg1.win 0).blk t).view.emb y) = _
  refine congrArg (V c main_v23) (funext fun a => Fin.ext ?_)
  obtain ⟨e0, e1, -⟩ := idx1 t
  match a with
  | ⟨0, _⟩ => show win1_0.index t (0 : Fin 2) * 10000 + 1 * (y 0).val = t.val * 10000 + (y 0).val; rw [e0]; omega
  | ⟨1, _⟩ => show win1_0.index t (1 : Fin 2) * 64 + 1 * (y 1).val = (y 1).val; rw [e1]; omega

theorem read1_1 (c : Dev nD) (t : Fin cfg1.N) :
    iblk1 V c 1 t = fun y : S10000x1.Idx => V c main_v12 (ix2 (row1 t (y 0)) (y 1)) := by
  funext y
  show V c main_v12 (((cfg1.win 1).blk t).view.emb y) = _
  refine congrArg (V c main_v12) (funext fun a => Fin.ext ?_)
  obtain ⟨-, -, e0, e1, -⟩ := idx1 t
  match a with
  | ⟨0, _⟩ => show win1_1.index t (0 : Fin 2) * 10000 + 1 * (y 0).val = t.val * 10000 + (y 0).val; rw [e0]; omega
  | ⟨1, _⟩ => show win1_1.index t (1 : Fin 2) * 1 + 1 * (y 1).val = (y 1).val; rw [e1]; omega

theorem read1_2 (c : Dev nD) (t : Fin cfg1.N) : iblk1 V c 2 t = V c main_v24 := by
  funext y
  show V c main_v24 (((cfg1.win 2).blk t).view.emb y) = _
  refine congrArg (V c main_v24) (funext fun a => Fin.ext ?_)
  obtain ⟨-, -, -, -, e0, e1, -⟩ := idx1 t
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

theorem read1_3 (c : Dev nD) (t : Fin cfg1.N) :
    iblk1 V c 3 t = fun y : S10000x1.Idx => V c main_v11 (ix2 (row1 t (y 0)) (y 1)) := by
  funext y
  show V c main_v11 (((cfg1.win 3).blk t).view.emb y) = _
  refine congrArg (V c main_v11) (funext fun a => Fin.ext ?_)
  obtain ⟨-, -, -, -, -, -, e0, e1, -⟩ := idx1 t
  match a with
  | ⟨0, _⟩ => show win1_3.index t (0 : Fin 2) * 10000 + 1 * (y 0).val = t.val * 10000 + (y 0).val; rw [e0]; omega
  | ⟨1, _⟩ => show win1_3.index t (1 : Fin 2) * 1 + 1 * (y 1).val = (y 1).val; rw [e1]; omega

theorem read1_4 (c : Dev nD) (t : Fin cfg1.N) : iblk1 V c 4 t = V c main_arg3 := by
  funext y
  show V c main_arg3 (((cfg1.win 4).blk t).view.emb y) = _
  refine congrArg (V c main_arg3) (funext fun a => Fin.ext ?_)
  obtain ⟨-, -, -, -, -, -, -, -, e0, e1, -⟩ := idx1 t
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

/-- Any array read through the output window's block at `t` is its rows `row1 t`. -/
theorem read1_5 (t : Fin cfg1.N) (A : S100000x32.Idx → Elt Ideal .f32) :
    ((cfg1.win 5).blk t).view.read (Elt Ideal) A = fun y : S10000x32.Idx => A (ix2 (row1 t (y 0)) (y 1)) := by
  funext y
  show A (((cfg1.win 5).blk t).view.emb y) = _
  refine congrArg A (funext fun a => Fin.ext ?_)
  obtain ⟨-, -, -, -, -, -, -, -, -, -, e0, e1⟩ := idx1 t
  match a with
  | ⟨0, _⟩ => show win1_5.index t (0 : Fin 2) * 10000 + 1 * (y 0).val = t.val * 10000 + (y 0).val; rw [e0]; omega
  | ⟨1, _⟩ => show win1_5.index t (1 : Fin 2) * 32 + 1 * (y 1).val = (y 1).val; rw [e1]; omega

/-- What point `t` writes back is block `t` of the hidden stage of the arrays as the region finds them. -/
theorem flushed1 (c : Dev nD) (t : Fin cfg1.N) :
    (dat1 V c).flushed 5 t
      = ((cfg1.win 5).blk t).view.read (Elt Ideal)
          (hiddenDot (V c main_v23) (V c main_v12) (V c main_v24) (V c main_v11) (V c main_arg3)) := by
  show (cfg1.win 5).cut (grid1.coords t) ((dat1 V c).after 5 t) = _
  rw [after1_5]
  unfold out1_5
  rw [View.canon_unit_zero origin2']
  simp only [View.ld_unit_zero (S := S10000x64) origin2', View.ld_unit_zero (S := S10000x1) origin2',
    View.ld_unit_zero (S := S1x64) origin2', View.ld_unit_zero (S := S64x32) origin2']
  rw [pay1, read1_0, read1_1, read1_2, read1_3, read1_4, read1_5]
  exact hiddenDot_rows (row1 t) (V c main_v23) (V c main_v12) (V c main_v24) (V c main_v11) (V c main_arg3)

/-- An index of the result array is in point `t`'s block iff each coordinate is in the block's range on its axis. -/
theorem mem_blk1 (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v25).slice (win1_5.rect t)).set ↔ _
  rw [View.set_slice_whole, Rect.mem_set_unit]
  exact Iff.rfl

/-- Row `r` of the result lies in the block of point `r / 10000`: the ten blocks cover the array. -/
theorem cover1 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : (i 0).val / 10000 < cfg1.N := by rw [show cfg1.N = 10 from N_1]; omega
  obtain ⟨-, -, -, -, -, -, -, -, -, -, e0, e1⟩ := idx1 ⟨(i 0).val / 10000, hN⟩
  refine ⟨⟨(i 0).val / 10000, hN⟩, flush1_5 _, ?_⟩
  rw [mem_blk1]
  intro a
  match a with
  | ⟨0, _⟩ =>
    show win1_5.index ⟨(i 0).val / 10000, hN⟩ (0 : Fin 2) * 10000 ≤ (i 0).val
      ∧ (i 0).val < win1_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hN⟩ (1 : Fin 2) * 32 ≤ (i 1).val
      ∧ (i 1).val < win1_5.index ⟨(i 0).val / 10000, hN⟩ (1 : Fin 2) * 32 + 32
    rw [e1]; omega

/-- After the second pallas_call its result array is the hidden stage of the arrays it was entered with. -/
theorem region1_value (c : Dev nD) :
    (dat1 V c).arrAt 5 cfg1.N = hiddenDot (V c main_v23) (V c main_v12) (V c main_v24) (V c main_v11) (V c main_arg3) :=
  (dat1 V c).arrAt_eq_of_cover 5 (hiddenDot (V c main_v23) (V c main_v12) (V c main_v24) (V c main_v11) (V c main_arg3))
    (fun t _ => flushed1 V c t) cover1

end Cert.KernelIdeal.Layers

end
-- ==== Proof.Region2.lean ====
/-
  The third pallas_call's result array as one function of the arrays it is entered with.

  Point `t` of its ten stages rows `10000·t … 10000·t + 9999` of the per-destination sums and of the
  destination-side scale column, the whole bias row, and writes back the same rows of the result: each entry scaled
  by its row's scale and shifted by its lane's bias (LibNormDense: `scaleShift`).  The ten row blocks cover the
  result array.
-/
import proofs.«104444_j77515569758941_1_alg».proof.Proof.Gen.KernelIdeal.Frame
import proofs.«104444_j77515569758941_1_alg».proof.Proof.LibNormDense
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.SL.Sem
open Idealize.ShloMosaic.ValueIdx Idealize.ShloMosaic.NormDense
open Idealize.ShloMosaic.Pipeline (Dat)

variable (V : (c : Dev nD) → (b : Ref sig .tc) → Buf (Elt Ideal) ((c : Thread nD τ).loc b))

/-- Row `p` of point `t`'s block is row `10000·t + p` of the array. -/
def row2 (t : Fin cfg2.N) (p : Fin 10000) : Fin 100000 :=
  ⟨t.val * 10000 + p.val, by have ht : t.val < 10 := lt_of_lt_of_eq t.isLt N_2; have := p.isLt; omega⟩

theorem origin2'' : (![0, 0] : Fin 2 → Nat) = fun _ => 0 := funext fun a => by fin_cases a <;> rfl

/-- On a block the body scales and shifts what it loaded. -/
theorem pay2 (x0 : Vec Ideal S10000x32 .f32) (x1 : Vec Ideal S10000x1 .f32) (x2 : Vec Ideal S1x32 .f32) :
    k2_pay1 x0 x1 x2 = scaleShift x0 x1 x2 :=
  kernel_scaleShift shapeCasts_S10000x32_S10000x32 shapeCasts_S10000x1_S10000x1 broadcasts_S10000x1_S10000x32
    shapeCasts_S1x32_S1x32 broadcasts_S1x32_S10000x32 x0 x1 x2

/-! ## The blocks -/

/-- The index maps over the grid: the row-blocked windows sit at block row `t`, the bias at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem read2_0 (c : Dev nD) (t : Fin cfg2.N) :
    iblk2 V c 0 t = fun y : S10000x32.Idx => V c main_v35 (ix2 (row2 t (y 0)) (y 1)) := by
  funext y
  show V c main_v35 (((cfg2.win 0).blk t).view.emb y) = _
  refine congrArg (V c main_v35) (funext fun a => Fin.ext ?_)
  obtain ⟨e0, e1, -⟩ := idx2 t
  match a with
  | ⟨0, _⟩ => show win2_0.index t (0 : Fin 2) * 10000 + 1 * (y 0).val = t.val * 10000 + (y 0).val; rw [e0]; omega
  | ⟨1, _⟩ => show win2_0.index t (1 : Fin 2) * 32 + 1 * (y 1).val = (y 1).val; rw [e1]; omega

theorem read2_1 (c : Dev nD) (t : Fin cfg2.N) :
    iblk2 V c 1 t = fun y : S10000x1.Idx => V c main_v12 (ix2 (row2 t (y 0)) (y 1)) := by
  funext y
  show V c main_v12 (((cfg2.win 1).blk t).view.emb y) = _
  refine congrArg (V c main_v12) (funext fun a => Fin.ext ?_)
  obtain ⟨-, -, e0, e1, -⟩ := idx2 t
  match a with
  | ⟨0, _⟩ => show win2_1.index t (0 : Fin 2) * 10000 + 1 * (y 0).val = t.val * 10000 + (y 0).val; rw [e0]; omega
  | ⟨1, _⟩ => show win2_1.index t (1 : Fin 2) * 1 + 1 * (y 1).val = (y 1).val; rw [e1]; omega

theorem read2_2 (c : Dev nD) (t : Fin cfg2.N) : iblk2 V c 2 t = V c main_v36 := by
  funext y
  show V c main_v36 (((cfg2.win 2).blk t).view.emb y) = _
  refine congrArg (V c main_v36) (funext fun a => Fin.ext ?_)
  obtain ⟨-, -, -, -, e0, e1, -⟩ := idx2 t
  match a with
  | ⟨0, _⟩ => show win2_2.index t (0 : Fin 2) * 1 + 1 * (y 0).val = (y 0).val; rw [e0]; omega
  | ⟨1, _⟩ => show win2_2.index t (1 : Fin 2) * 32 + 1 * (y 1).val = (y 1).val; rw [e1]; omega

/-- Any array read through the output window's block at `t` is its rows `row2 t`. -/
theorem read2_3 (t : Fin cfg2.N) (A : S100000x32.Idx → Elt Ideal .f32) :
    ((cfg2.win 3).blk t).view.read (Elt Ideal) A = fun y : S10000x32.Idx => A (ix2 (row2 t (y 0)) (y 1)) := by
  funext y
  show A (((cfg2.win 3).blk t).view.emb y) = _
  refine congrArg A (funext fun a => Fin.ext ?_)
  obtain ⟨-, -, -, -, -, -, e0, e1⟩ := idx2 t
  match a with
  | ⟨0, _⟩ => show win2_3.index t (0 : Fin 2) * 10000 + 1 * (y 0).val = t.val * 10000 + (y 0).val; rw [e0]; omega
  | ⟨1, _⟩ => show win2_3.index t (1 : Fin 2) * 32 + 1 * (y 1).val = (y 1).val; rw [e1]; omega

/-- What point `t` writes back is block `t` of the scaled and shifted array. -/
theorem flushed2 (c : Dev nD) (t : Fin cfg2.N) :
    (dat2 V c).flushed 3 t
      = ((cfg2.win 3).blk t).view.read (Elt Ideal) (scaleShift (V c main_v35) (V c main_v12) (V c main_v36)) := by
  show (cfg2.win 3).cut (grid2.coords t) ((dat2 V c).after 3 t) = _
  rw [after2_3]
  unfold out2_3
  rw [View.canon_unit_zero origin2'']
  simp only [View.ld_unit_zero (S := S10000x32) origin2'', View.ld_unit_zero (S := S10000x1) origin2'',
    View.ld_unit_zero (S := S1x32) origin2'']
  rw [pay2, read2_0, read2_1, read2_2, read2_3]
  exact scaleShift_rows (row2 t) (V c main_v35) (V c main_v12) (V c main_v36)

/-- An index of the result array is in point `t`'s block iff each coordinate is in the block's range on its axis. -/
theorem mem_blk2 (t : Fin cfg2.N) (i : S100000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v37).slice (win2_3.rect t)).set ↔ _
  rw [View.set_slice_whole, Rect.mem_set_unit]
  exact Iff.rfl

/-- Row `r` of the result lies in the block of point `r / 10000`: the ten blocks cover the array. -/
theorem cover2 (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : (i 0).val / 10000 < cfg2.N := by rw [show cfg2.N = 10 from N_2]; omega
  obtain ⟨-, -, -, -, -, -, e0, e1⟩ := idx2 ⟨(i 0).val / 10000, hN⟩
  refine ⟨⟨(i 0).val / 10000, hN⟩, flush2_3 _, ?_⟩
  rw [mem_blk2]
  intro a
  match a with
  | ⟨0, _⟩ =>
    show win2_3.index ⟨(i 0).val / 10000, hN⟩ (0 : Fin 2) * 10000 ≤ (i 0).val
      ∧ (i 0).val < win2_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win2_3.index ⟨(i 0).val / 10000, hN⟩ (1 : Fin 2) * 32 ≤ (i 1).val
      ∧ (i 1).val < win2_3.index ⟨(i 0).val / 10000, hN⟩ (1 : Fin 2) * 32 + 32
    rw [e1]; omega

/-- After the third pallas_call its result array is the scaled and shifted array. -/
theorem region2_value (c : Dev nD) :
    (dat2 V c).arrAt 3 cfg2.N = scaleShift (V c main_v35) (V c main_v12) (V c main_v36) :=
  (dat2 V c).arrAt_eq_of_cover 3 (scaleShift (V c main_v35) (V c main_v12) (V c main_v36))
    (fun t _ => flushed2 V c t) cover2

end Cert.KernelIdeal.Layers

end
-- ==== Proof.Network.lean ====
/-
  The two-layer graph convolution as ONE function of the seven argument arrays, on the extended reals.

  `degScale e` is the column `[100000, 1]` whose entry at a node is `rsqrt (max 1 (number of edges whose endpoint in
  e is the node))`; `edgeSum h src dst` gathers row `src e` of `h` for every edge `e` (a negative index counted from
  the end) and adds it into row `dst e` of a zero array.  With `s = degScale src` and `t = degScale dst`:

      layer 1   a₁ = edgeSum (scaledDot x s W₁)
      layer 2   a₂ = edgeSum (hiddenDot a₁ t b₁ s W₂)          (bias, clamp at zero, next layer's scale and weights)
      result    scaleShift a₂ t b₂

  The dense stages are LibNormDense's; the edge stages are the host's gather and scatter-add, kept as they are: the
  kernel program and the reference apply the same ones.
-/
import proofs.«104444_j77515569758941_1_alg».proof.KernelIdeal
import proofs.«104444_j77515569758941_1_alg».proof.Proof.Gen.KernelIdeal
import proofs.«104444_j77515569758941_1_alg».proof.Proof.LibNormDense

noncomputable section

namespace Cert.KernelIdeal.Layers

open Cert.KernelIdeal Cert.KernelIdeal.Facts₀ Cert.KernelIdeal.Facts Idealize.ShloMosaic Idealize.ShloMosaic.TcCoe
open Idealize.ShloMosaic.ValueIdx Idealize.ShloMosaic.NormDense

/-- A float array of shape `s`, and an index array, as the host operations take them. -/
abbrev FArr (s : Shape) : Type := (⟨s, .f32⟩ : BufTy).Contents (Elt Ideal)
abbrev IArr (s : Shape) : Type := (⟨s, .i32⟩ : BufTy).Contents (Elt Ideal)

/-- The degree scale of the nodes with respect to one endpoint array, as a column (at any float instance: the host
    operations that compute it are the same whatever the floats are). -/
def degScale {F : FTy → Type} [FloatOps F] (e : (⟨S1600000, .i32⟩ : BufTy).Contents (Elt F)) :
    (⟨S100000x1, .f32⟩ : BufTy).Contents (Elt F) :=
  broadcastInDim S100000x1 ![0] bcast_S100000_S100000x1_0
    (Host.rsqrt (F := F)
      (maximumf (broadcastInDim S100000 ![] bcast_S_S100000 (id (constant (F := F) S_ .f32 0x3F800000#32)))
        (Host.scatterAdd (F := F) scatter_S100000_S1600000x1_S1600000_n_0_0_1
          (broadcastInDim S100000 ![] bcast_S_S100000 (constant (F := F) S_ .f32 0x00000000#32))
          (broadcastInDim S1600000x1 ![0] bcast_S1600000_S1600000x1_0 e)
          (broadcastInDim S1600000 ![] bcast_S_S1600000 (constant (F := F) S_ .f32 0x3F800000#32)))))

/-- The source endpoints as gather indices: a negative one counted from the end, laid as a column. -/
def srcIdx (src : IArr S1600000) : IArr S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows gathered along the edges and summed per destination, 64 lanes. -/
def edgeSum64 (h : FArr S100000x64) (src dst : IArr S1600000) : FArr S100000x64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (srcIdx src))

/-- Rows gathered along the edges and summed per destination, 32 lanes. -/
def edgeSum32 (h : FArr S100000x32) (src dst : IArr S1600000) : FArr S100000x32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 h (srcIdx src))

/-- The whole network. -/
def network (x : FArr S100000x128) (w1 : FArr S128x64) (b1 : FArr S64) (w2 : FArr S64x32) (b2 : FArr S32)
    (src dst : IArr S1600000) : FArr S100000x32 :=
  scaleShift
    (edgeSum32
      (hiddenDot (edgeSum64 (scaledDot x (degScale (F := Ideal) src) w1) src dst) (degScale (F := Ideal) dst)
        (shapeCast S1x64 b1 shapeCasts_S64_S1x64) (degScale (F := Ideal) src) w2)
      src dst)
    (degScale (F := Ideal) dst) (shapeCast S1x32 b2 shapeCasts_S32_S1x32)

end Cert.KernelIdeal.Layers

end
-- ==== Proof.KernelValue.lean ====
/-
  The kernel program's result array as the network function of the argument arrays.

  The buffers' contents at the segment boundaries are a fold `W0 … W10` through the program.  Read off it: after the
  host stretches before the first pallas_call the two scale columns hold the degree scales and no argument has
  moved (`s5_*`); a pallas_call leaves its result array at the dense stage of the arrays it was entered with
  (Region0, Region1, Region2) and every other buffer as it was (`s6_*`, `s8_*`, the last one `kernel_value`); the
  stretch after each of the first two gathers that result along the edges, sums it per destination and lays the next
  bias as a row (`s7_*`, `s9_*`).  Composed, the result buffer holds `network` of the arguments.
-/
import proofs.«104444_j77515569758941_1_alg».proof.Proof.Gen.KernelIdeal.Frame
import proofs.«104444_j77515569758941_1_alg».proof.Proof.Region0
import proofs.«104444_j77515569758941_1_alg».proof.Proof.Region1
import proofs.«104444_j77515569758941_1_alg».proof.Proof.Region2
import proofs.«104444_j77515569758941_1_alg».proof.Proof.Network
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.ValueIdx Idealize.ShloMosaic.NormDense
open Idealize.ShloMosaic.Pipeline (Dat)

/-! ## The two degree scales, at any float instance

  Read at an abstract float instance the host operations are opaque, so the composed term of the stretches before
  the first pallas_call is compared with `degScale` by its shape alone. -/

section AnyInstance

variable {F : FTy → Type} [FloatOps F] (mF : (ℓ : Loc nD τ sig) → Buf (Elt F) ℓ) (ρ : Dev nD → PrngReg)

theorem scale_src (c : Dev nD) : W5 mF ρ c (Proc.devRef .tc main_v11) = degScale (mF ((c : Thread nD τ).loc main_arg5)) := by
  show StableHlo.after hostOps0_4 (StableHlo.after hostOps0_3 (StableHlo.after hostOps0_2 (StableHlo.after hostOps0_1
    (StableHlo.after hostOps0 (W0 mF ρ c))))) (Proc.devRef .tc main_v11) = _
  dsimp only [hostOps0, hostOps0_1, hostOps0_2, hostOps0_3, hostOps0_4]
  after_results
  rfl

theorem scale_dst (c : Dev nD) : W5 mF ρ c (Proc.devRef .tc main_v12) = degScale (mF ((c : Thread nD τ).loc main_arg6)) := by
  show StableHlo.after hostOps0_4 (StableHlo.after hostOps0_3 (StableHlo.after hostOps0_2 (StableHlo.after hostOps0_1
    (StableHlo.after hostOps0 (W0 mF ρ c))))) (Proc.devRef .tc main_v12) = _
  dsimp only [hostOps0, hostOps0_1, hostOps0_2, hostOps0_3, hostOps0_4]
  after_results
  rfl

end AnyInstance

variable (m : (ℓ : Loc nD τ sig) → Buf (Elt Ideal) ℓ) (ρ : Dev nD → PrngReg)

/-! ## Entering the first pallas_call -/

theorem s5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  dsimp only [hostOps0, hostOps0_1, hostOps0_2, hostOps0_3, hostOps0_4]
  after_results

theorem s5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  dsimp only [hostOps0, hostOps0_1, hostOps0_2, hostOps0_3, hostOps0_4]
  after_results

theorem s5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  dsimp only [hostOps0, hostOps0_1, hostOps0_2, hostOps0_3, hostOps0_4]
  after_results

theorem s5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  dsimp only [hostOps0, hostOps0_1, hostOps0_2, hostOps0_3, hostOps0_4]
  after_results

theorem s5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1
    (StableHlo.after hostOps0 (W0 m ρ c))))) (Proc.devRef .tc main_arg4) = _
  dsimp only [hostOps0, hostOps0_1, hostOps0_2, hostOps0_3, hostOps0_4]
  after_results

theorem s5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  dsimp only [hostOps0, hostOps0_1, hostOps0_2, hostOps0_3, hostOps0_4]
  after_results

theorem s5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1
    (StableHlo.after hostOps0 (W0 m ρ c))))) (Proc.devRef .tc main_arg6) = _
  dsimp only [hostOps0, hostOps0_1, hostOps0_2, hostOps0_3, hostOps0_4]
  after_results

theorem s5_v11 (c : Dev nD) : W5 m ρ c (Proc.devRef .tc main_v11) = degScale (m ((c : Thread nD τ).loc main_arg5)) := scale_src m ρ c

theorem s5_v12 (c : Dev nD) : W5 m ρ c (Proc.devRef .tc main_v12) = degScale (m ((c : Thread nD τ).loc main_arg6)) := scale_dst m ρ c

/-! ## Leaving the first pallas_call -/

theorem s6_v13 (c : Dev nD) : W6 m ρ c (Proc.devRef .tc main_v13) = scaledDot (m ((c : Thread nD τ).loc main_arg0)) (degScale (m ((c : Thread nD τ).loc main_arg5))) (m ((c : Thread nD τ).loc main_arg1)) :=
  (W6_arr m ρ c 3).trans ((region0_value (V5 m ρ) c).trans (by
    show scaledDot (W5 m ρ c (Proc.devRef .tc main_arg0)) (W5 m ρ c (Proc.devRef .tc main_v11)) (W5 m ρ c (Proc.devRef .tc main_arg1)) = _
    rw [s5_arg0, s5_v11, s5_arg1]))

theorem s6_v11 (c : Dev nD) : W6 m ρ c (Proc.devRef .tc main_v11) = degScale (m ((c : Thread nD τ).loc main_arg5)) :=
  (W6_arr m ρ c 1).trans (((dat0 (V5 m ρ) c).arrAt_in 1 rfl _).trans ((A_eq0 (V5 m ρ) c 1).trans (s5_v11 m ρ c)))

theorem s6_v12 (c : Dev nD) : W6 m ρ c (Proc.devRef .tc main_v12) = degScale (m ((c : Thread nD τ).loc main_arg6)) :=
  (W6_of_ne m ρ c main_v12 (by decide)).trans (s5_v12 m ρ c)

theorem s6_arg2 (c : Dev nD) : W6 m ρ c (Proc.devRef .tc main_arg2) = m ((c : Thread nD τ).loc main_arg2) :=
  (W6_of_ne m ρ c main_arg2 (by decide)).trans (s5_arg2 m ρ c)

theorem s6_arg3 (c : Dev nD) : W6 m ρ c (Proc.devRef .tc main_arg3) = m ((c : Thread nD τ).loc main_arg3) :=
  (W6_of_ne m ρ c main_arg3 (by decide)).trans (s5_arg3 m ρ c)

theorem s6_arg4 (c : Dev nD) : W6 m ρ c (Proc.devRef .tc main_arg4) = m ((c : Thread nD τ).loc main_arg4) :=
  (W6_of_ne m ρ c main_arg4 (by decide)).trans (s5_arg4 m ρ c)

theorem s6_arg5 (c : Dev nD) : W6 m ρ c (Proc.devRef .tc main_arg5) = m ((c : Thread nD τ).loc main_arg5) :=
  (W6_of_ne m ρ c main_arg5 (by decide)).trans (s5_arg5 m ρ c)

theorem s6_arg6 (c : Dev nD) : W6 m ρ c (Proc.devRef .tc main_arg6) = m ((c : Thread nD τ).loc main_arg6) :=
  (W6_of_ne m ρ c main_arg6 (by decide)).trans (s5_arg6 m ρ c)

/-! ## Entering the second pallas_call -/

set_option maxHeartbeats 4000000 in
theorem s7_v23 (c : Dev nD) : W7 m ρ c (Proc.devRef .tc main_v23) = edgeSum64 (scaledDot (m ((c : Thread nD τ).loc main_arg0)) (degScale (m ((c : Thread nD τ).loc main_arg5))) (m ((c : Thread nD τ).loc main_arg1))) (m ((c : Thread nD τ).loc main_arg5)) (m ((c : Thread nD τ).loc main_arg6)) := by
  show StableHlo.after hostOps1 (W6 m ρ c) (Proc.devRef .tc main_v23) = _
  dsimp only [hostOps1]
  after_results
  rw [s6_v13, s6_arg5, s6_arg6]
  rfl

set_option maxHeartbeats 4000000 in
theorem s7_v24 (c : Dev nD) : W7 m ρ c (Proc.devRef .tc main_v24) = shapeCast S1x64 (m ((c : Thread nD τ).loc main_arg2)) shapeCasts_S64_S1x64 := by
  show StableHlo.after hostOps1 (W6 m ρ c) (Proc.devRef .tc main_v24) = _
  dsimp only [hostOps1]
  after_results
  rw [s6_arg2]
  rfl

set_option maxHeartbeats 4000000 in
theorem s7_v12 (c : Dev nD) : W7 m ρ c (Proc.devRef .tc main_v12) = degScale (m ((c : Thread nD τ).loc main_arg6)) := by
  show StableHlo.after hostOps1 (W6 m ρ c) (Proc.devRef .tc main_v12) = _
  dsimp only [hostOps1]
  after_results

  exact s6_v12 m ρ c

set_option maxHeartbeats 4000000 in
theorem s7_v11 (c : Dev nD) : W7 m ρ c (Proc.devRef .tc main_v11) = degScale (m ((c : Thread nD τ).loc main_arg5)) := by
  show StableHlo.after hostOps1 (W6 m ρ c) (Proc.devRef .tc main_v11) = _
  dsimp only [hostOps1]
  after_results

  exact s6_v11 m ρ c

set_option maxHeartbeats 4000000 in
theorem s7_arg3 (c : Dev nD) : W7 m ρ c (Proc.devRef .tc main_arg3) = m ((c : Thread nD τ).loc main_arg3) := by
  show StableHlo.after hostOps1 (W6 m ρ c) (Proc.devRef .tc main_arg3) = _
  dsimp only [hostOps1]
  after_results

  exact s6_arg3 m ρ c

set_option maxHeartbeats 4000000 in
theorem s7_arg4 (c : Dev nD) : W7 m ρ c (Proc.devRef .tc main_arg4) = m ((c : Thread nD τ).loc main_arg4) := by
  show StableHlo.after hostOps1 (W6 m ρ c) (Proc.devRef .tc main_arg4) = _
  dsimp only [hostOps1]
  after_results

  exact s6_arg4 m ρ c

set_option maxHeartbeats 4000000 in
theorem s7_arg5 (c : Dev nD) : W7 m ρ c (Proc.devRef .tc main_arg5) = m ((c : Thread nD τ).loc main_arg5) := by
  show StableHlo.after hostOps1 (W6 m ρ c) (Proc.devRef .tc main_arg5) = _
  dsimp only [hostOps1]
  after_results

  exact s6_arg5 m ρ c

set_option maxHeartbeats 4000000 in
theorem s7_arg6 (c : Dev nD) : W7 m ρ c (Proc.devRef .tc main_arg6) = m ((c : Thread nD τ).loc main_arg6) := by
  show StableHlo.after hostOps1 (W6 m ρ c) (Proc.devRef .tc main_arg6) = _
  dsimp only [hostOps1]
  after_results

  exact s6_arg6 m ρ c

/-! ## Leaving the second pallas_call -/

theorem s8_v25 (c : Dev nD) : W8 m ρ c (Proc.devRef .tc main_v25) = hiddenDot (edgeSum64 (scaledDot (m ((c : Thread nD τ).loc main_arg0)) (degScale (m ((c : Thread nD τ).loc main_arg5))) (m ((c : Thread nD τ).loc main_arg1))) (m ((c : Thread nD τ).loc main_arg5)) (m ((c : Thread nD τ).loc main_arg6))) (degScale (m ((c : Thread nD τ).loc main_arg6))) (shapeCast S1x64 (m ((c : Thread nD τ).loc main_arg2)) shapeCasts_S64_S1x64) (degScale (m ((c : Thread nD τ).loc main_arg5))) (m ((c : Thread nD τ).loc main_arg3)) :=
  (W8_arr m ρ c 5).trans ((region1_value (V7 m ρ) c).trans (by
    show hiddenDot (W7 m ρ c (Proc.devRef .tc main_v23)) (W7 m ρ c (Proc.devRef .tc main_v12)) (W7 m ρ c (Proc.devRef .tc main_v24))
      (W7 m ρ c (Proc.devRef .tc main_v11)) (W7 m ρ c (Proc.devRef .tc main_arg3)) = _
    rw [s7_v23, s7_v12, s7_v24, s7_v11, s7_arg3]))

theorem s8_v12 (c : Dev nD) : W8 m ρ c (Proc.devRef .tc main_v12) = degScale (m ((c : Thread nD τ).loc main_arg6)) :=
  (W8_arr m ρ c 1).trans (((dat1 (V7 m ρ) c).arrAt_in 1 rfl _).trans ((A_eq1 (V7 m ρ) c 1).trans (s7_v12 m ρ c)))

theorem s8_arg4 (c : Dev nD) : W8 m ρ c (Proc.devRef .tc main_arg4) = m ((c : Thread nD τ).loc main_arg4) :=
  (W8_of_ne m ρ c main_arg4 (by decide)).trans (s7_arg4 m ρ c)

theorem s8_arg5 (c : Dev nD) : W8 m ρ c (Proc.devRef .tc main_arg5) = m ((c : Thread nD τ).loc main_arg5) :=
  (W8_of_ne m ρ c main_arg5 (by decide)).trans (s7_arg5 m ρ c)

theorem s8_arg6 (c : Dev nD) : W8 m ρ c (Proc.devRef .tc main_arg6) = m ((c : Thread nD τ).loc main_arg6) :=
  (W8_of_ne m ρ c main_arg6 (by decide)).trans (s7_arg6 m ρ c)

/-! ## Entering the third pallas_call -/

set_option maxHeartbeats 4000000 in
theorem s9_v35 (c : Dev nD) : W9 m ρ c (Proc.devRef .tc main_v35) = edgeSum32 (hiddenDot (edgeSum64 (scaledDot (m ((c : Thread nD τ).loc main_arg0)) (degScale (m ((c : Thread nD τ).loc main_arg5))) (m ((c : Thread nD τ).loc main_arg1))) (m ((c : Thread nD τ).loc main_arg5)) (m ((c : Thread nD τ).loc main_arg6))) (degScale (m ((c : Thread nD τ).loc main_arg6))) (shapeCast S1x64 (m ((c : Thread nD τ).loc main_arg2)) shapeCasts_S64_S1x64) (degScale (m ((c : Thread nD τ).loc main_arg5))) (m ((c : Thread nD τ).loc main_arg3))) (m ((c : Thread nD τ).loc main_arg5)) (m ((c : Thread nD τ).loc main_arg6)) := by
  show StableHlo.after hostOps2 (W8 m ρ c) (Proc.devRef .tc main_v35) = _
  dsimp only [hostOps2]
  after_results
  rw [s8_v25, s8_arg5, s8_arg6]
  rfl

set_option maxHeartbeats 4000000 in
theorem s9_v36 (c : Dev nD) : W9 m ρ c (Proc.devRef .tc main_v36) = shapeCast S1x32 (m ((c : Thread nD τ).loc main_arg4)) shapeCasts_S32_S1x32 := by
  show StableHlo.after hostOps2 (W8 m ρ c) (Proc.devRef .tc main_v36) = _
  dsimp only [hostOps2]
  after_results
  rw [s8_arg4]
  rfl

set_option maxHeartbeats 4000000 in
theorem s9_v12 (c : Dev nD) : W9 m ρ c (Proc.devRef .tc main_v12) = degScale (m ((c : Thread nD τ).loc main_arg6)) := by
  show StableHlo.after hostOps2 (W8 m ρ c) (Proc.devRef .tc main_v12) = _
  dsimp only [hostOps2]
  after_results

  exact s8_v12 m ρ c

/-! ## The result -/

/-- The last boundary's contents at the result buffer: the network function of the arguments as launched. -/
theorem kernel_value (c : Dev nD) :
    W10 m ρ c (Proc.devRef .tc main_v37)
      = network (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) :=
  (W10_arr m ρ c 3).trans ((region2_value (V9 m ρ) c).trans (by
    show scaleShift (W9 m ρ c (Proc.devRef .tc main_v35)) (W9 m ρ c (Proc.devRef .tc main_v12)) (W9 m ρ c (Proc.devRef .tc main_v36)) = _
    rw [s9_v35, s9_v12, s9_v36]
    rfl))

end Cert.KernelIdeal.Layers

end
-- ==== Proof.RefValue.lean ====
/-
  The reference program's result as the network function of its argument arrays.

  The reference's run gives its result as one composed term of the arguments.  Its three dense stages are the host
  spellings of LibNormDense's functions: `dot_general` of the rows scaled by the broadcast scale column; the same
  after the bias, the clamp at zero and the second scale; the final scale and bias.  Its edge stages (gather along
  the edges, sum per destination) and its degree scales are the very operations `network` is written with, and a
  bias laid as a row by `broadcast_in_dim` is the row a reshape lays.
-/
import proofs.«104444_j77515569758941_1_alg».proof.Proof.Gen.ReferenceIdeal.Run
import proofs.«104444_j77515569758941_1_alg».proof.Proof.Gen.ReferenceIdeal.Read
import proofs.«104444_j77515569758941_1_alg».proof.Proof.Network
import proofs.«104444_j77515569758941_1_alg».proof.Proof.LibNormDense

set_option maxRecDepth 16384

noncomputable section

namespace Cert.ReferenceIdeal.Layers

open Cert.ReferenceIdeal Cert.ReferenceIdeal.Gen Cert.ReferenceIdeal.Value
open Idealize.ShloMosaic Idealize.ShloMosaic.TcCoe Idealize.SL.Sem
open Idealize.ShloMosaic.ValueIdx Idealize.ShloMosaic.NormDense

variable (m : (ℓ : Loc nD τ sig) → Buf (Elt Ideal) ℓ)

/-- The reference's result term is the network function of its arguments. -/
theorem ref_value (c : Dev nD) :
    res_main_v51 (F := Ideal) m c
      = Cert.KernelIdeal.Layers.network (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  unfold res_main_v51
  rw [host_scaleShift bcast_S100000x1_S100000x32_0_1 bcast_S1x32_S100000x32_0_1,
    host_hiddenDot dot_S100000x64_S64x32_S100000x32_1_0_0_1_n_n none rfl rfl Read.lhs_main_v35_0 Read.lhs_main_v35_1
      Read.rhs_main_v35_0 Read.rhs_main_v35_1 bcast_S100000x1_S100000x64_0_1 bcast_S1x64_S100000x64_0_1 bcast_S_S100000x64,
    host_scaledDot dot_S100000x128_S128x64_S100000x64_1_0_0_1_n_n none rfl rfl Read.lhs_main_v14_0 Read.lhs_main_v14_1
      Read.rhs_main_v14_0 Read.rhs_main_v14_1 bcast_S100000x1_S100000x128_0_1,
    ← row_reshape_eq_bcast Cert.KernelIdeal.Facts₀.shapeCasts_S64_S1x64 bcast_S64_S1x64_1,
    ← row_reshape_eq_bcast Cert.KernelIdeal.Facts₀.shapeCasts_S32_S1x32 bcast_S32_S1x32_1]
  rfl

end Cert.ReferenceIdeal.Layers

end
-- ==== Proof.lean ====
/-
  A two-layer graph convolution with symmetric degree normalisation, as three pallas_calls among host operations,
  against its plain jnp reference: equal results on the extended reals.

  With `s` and `t` the degree scales of the nodes as source and as destination, both programs compute

      a₁ = Σ over edges into a node of the rows of (x · s) W₁,
      a₂ = Σ over edges into a node of the rows of (max (a₁ · t + b₁) 0 · s) W₂,
      result = a₂ · t + b₂.

  The kernel program does the three dense stages in row blocks of 10000 on the matrix unit (operands narrowed on the
  way in, which is the identity on extended reals) and leaves the gathers and the per-destination sums to the host;
  the reference does everything on the host.  Each dense stage is one function of whole arrays whichever way it is
  spelt (LibNormDense), a block of its rows depends on those rows only (Region0 / Region1 / Region2), and the edge
  stages and the degree scales are the same host operations in both programs (Network).  So both results are
  `network` of the arguments (KernelValue, RefValue).  No law of arithmetic is used, and the precondition is never
  opened: the equality holds for every extended-real input.

  The three frames: the two kernel programs' are generated; the reference's is its generated run with the result
  dropped.  Nothing was rewritten by the ideal pass, so `preserves` is `True`.
-/
import proofs.«104444_j77515569758941_1_alg».proof.Defs
import proofs.«104444_j77515569758941_1_alg».proof.Proof.Gen.Kernel
import proofs.«104444_j77515569758941_1_alg».proof.Proof.Gen.Kernel.Skeleton
import proofs.«104444_j77515569758941_1_alg».proof.Proof.Gen.Kernel.Launch
import proofs.«104444_j77515569758941_1_alg».proof.Proof.Gen.Kernel.Points
import proofs.«104444_j77515569758941_1_alg».proof.Proof.Gen.Kernel.Frame
import proofs.«104444_j77515569758941_1_alg».proof.Proof.Gen.KernelIdeal
import proofs.«104444_j77515569758941_1_alg».proof.Proof.Gen.KernelIdeal.Skeleton
import proofs.«104444_j77515569758941_1_alg».proof.Proof.Gen.KernelIdeal.Launch
import proofs.«104444_j77515569758941_1_alg».proof.Proof.Gen.KernelIdeal.Points
import proofs.«104444_j77515569758941_1_alg».proof.Proof.Gen.KernelIdeal.Frame
import proofs.«104444_j77515569758941_1_alg».proof.Proof.Gen.ReferenceIdeal
import proofs.«104444_j77515569758941_1_alg».proof.Proof.Gen.Pre_finite_inputs
import proofs.«104444_j77515569758941_1_alg».proof.Proof.Gen.ReferenceIdeal.Run
import proofs.«104444_j77515569758941_1_alg».proof.Proof.Gen.ReferenceIdeal.Read
import proofs.«104444_j77515569758941_1_alg».proof.Proof.KernelRun
import proofs.«104444_j77515569758941_1_alg».proof.Proof.KernelValue
import proofs.«104444_j77515569758941_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with their result at the network function of the
    arguments. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Layers.kernel_value m ρ c), (h c).2⟩)
      (Cert.KernelIdeal.Layers.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layers.ref_value m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
